-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S32x512 : Shape := ⟨2, ![32, 512]⟩
abbrev S32 : Shape := ⟨1, ![32]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x512x64x64 .f32) (main_arg1 : FVec F S32x512 .f32) (main_arg2 : FVec F S32 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x512x64x64 : Shape := ⟨4, ![16, 512, 64, 64]⟩
abbrev S32x512 : Shape := ⟨2, ![32, 512]⟩
abbrev S32 : Shape := ⟨1, ![32]⟩
abbrev S16x512x4096 : Shape := ⟨3, ![16, 512, 4096]⟩
abbrev S32x1 : Shape := ⟨2, ![32, 1]⟩
abbrev S16x32x512 : Shape := ⟨3, ![16, 32, 512]⟩
abbrev S1x512x2048 : Shape := ⟨3, ![1, 512, 2048]⟩
abbrev S1x32x512 : Shape := ⟨3, ![1, 32, 512]⟩
abbrev S512x2048 : Shape := ⟨2, ![512, 2048]⟩
abbrev S2048 : Shape := ⟨1, ![2048]⟩
abbrev S1x2048 : Shape := ⟨2, ![1, 2048]⟩
abbrev S32x2048 : Shape := ⟨2, ![32, 2048]⟩

abbrev nBuf : Space → Nat
  | .hbm => 6
  | .vmem => 8
  | .smem => 0
  | _ => 0

abbrev bufTy : (tb : Table) → Fin (tcTables nBuf tb) → BufTy
  | .hbm, ⟨0, _⟩ => ⟨S16x512x64x64, .f32⟩
  | .hbm, ⟨1, _⟩ => ⟨S32x512, .f32⟩
  | .hbm, ⟨2, _⟩ => ⟨S32, .f32⟩
  | .hbm, ⟨3, _⟩ => ⟨S16x512x4096, .f32⟩
  | .hbm, ⟨4, _⟩ => ⟨S32x1, .f32⟩
  | .hbm, ⟨5, _⟩ => ⟨S16x32x512, .f32⟩
  | .local _ .vmem, ⟨0, _⟩ => ⟨S1x512x2048, .f32⟩
  | .local _ .vmem, ⟨1, _⟩ => ⟨S1x512x2048, .f32⟩
  | .local _ .vmem, ⟨2, _⟩ => ⟨S32x512, .f32⟩
  | .local _ .vmem, ⟨3, _⟩ => ⟨S32x1, .f32⟩
  | .local _ .vmem, ⟨4, _⟩ => ⟨S1x32x512, .f32⟩
  | .local _ .vmem, ⟨5, _⟩ => ⟨S1x32x512, .f32⟩
  | .local _ .vmem, ⟨6, _⟩ => ⟨S32x512, .f32⟩
  | .local _ .vmem, ⟨7, _⟩ => ⟨S32x1, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v49 : BitVec 1 := Scalar.cmpi .eq arg1 c1_i32
  let v50 : BitVec 32 := Scalar.extui v49
  let c0_i32_22 : BitVec 32 := 0#32
  let v51 : BitVec 1 := Scalar.cmpi .ne v50 c0_i32_22
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x512x64x64_S16x512x4096 : S16x512x64x64.ShapeCasts S16x512x4096
  shapeCasts_S32_S32x1 : S32.ShapeCasts S32x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  reduces_S512x2048_S2048 : S512x2048.Reduces [0] S2048
  shapeCasts_S2048_S1x2048 : S2048.ShapeCasts S1x2048
  reduces_S32x512_S32 : S32x512.Reduces [1] S32
  broadcasts_S1x2048_S32x2048 : S1x2048.Broadcasts S32x2048
  broadcasts_S32x1_S32x2048 : S32x1.Broadcasts S32x2048
  reduces_S32x2048_S2048 : S32x2048.Reduces [0] S2048
  reduces_S32x2048_S32 : S32x2048.Reduces [1] S32
  broadcasts_S32x1_S32x512 : S32x1.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  dot_S32x512_S512x2048_S32x2048_1_0_0_1_n_n_wf : DotDims.WF S32x512 S512x2048 S32x2048 [1] [0] [0] [1] [] []
  dot_S32x2048_S512x2048_S32x512_1_1_0_0_n_n_wf : DotDims.WF S32x2048 S512x2048 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x4096.size a
  hwx0_0 : ∀ i : grid0.Coords, EltTy.bits .f32 = 32 ∨ (Rect.block (s := S16x512x4096) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x512.size a ≤ S16x32x512.size a
  hwx0_3 : ∀ i : grid0.Coords, EltTy.bits .f32 = 32 ∨ (Rect.block (s := S16x32x512) S1x32x512.size (cc0_transform_3 i) (hinb0_3 i)).WholeWords (EltTy.packing .f32)

variable [Facts₀]

def dot_S32x512_S512x2048_S32x2048_1_0_0_1_n_n : DotDims S32x512 S512x2048 S32x2048 where
  lhsContracting := [1]
  rhsContracting := [0]
  lhsNonContracting := [0]
  rhsNonContracting := [1]
  lhsBatch := []
  rhsBatch := []
  wf := dot_S32x512_S512x2048_S32x2048_1_0_0_1_n_n_wf
def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x512x64x64 : Shape := ⟨4, ![16, 512, 64, 64]⟩
abbrev S32x512 : Shape := ⟨2, ![32, 512]⟩
abbrev S32 : Shape := ⟨1, ![32]⟩
abbrev S16x512x4096 : Shape := ⟨3, ![16, 512, 4096]⟩
abbrev S16x4096x512 : Shape := ⟨3, ![16, 4096, 512]⟩
abbrev S_ : Shape := ⟨0, ![]⟩
abbrev S16x4096 : Shape := ⟨2, ![16, 4096]⟩
abbrev S16x4096x32 : Shape := ⟨3, ![16, 4096, 32]⟩
abbrev S1x1x32 : Shape := ⟨3, ![1, 1, 32]⟩
abbrev S16x4096x1 : Shape := ⟨3, ![16, 4096, 1]⟩
abbrev S16x32x512 : Shape := ⟨3, ![16, 32, 512]⟩
abbrev S16x32 : Shape := ⟨2, ![16, 32]⟩
abbrev S16x32x1 : Shape := ⟨3, ![16, 32, 1]⟩
abbrev S1x32x512 : Shape := ⟨3, ![1, 32, 512]⟩

abbrev nBuf : Space → Nat
  | .hbm => 48
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S32x512, .f32⟩
  | .hbm, ⟨2, _⟩ => ⟨S32, .f32⟩
  | .hbm, ⟨3, _⟩ => ⟨S16x512x4096, .f32⟩
  | .hbm, ⟨4, _⟩ => ⟨S16x4096x512, .f32⟩
  | .hbm, ⟨5, _⟩ => ⟨S32, .f32⟩
  | .hbm, ⟨6, _⟩ => ⟨S16x4096x512, .f32⟩
  | .hbm, ⟨7, _⟩ => ⟨S_, .f32⟩
  | .hbm, ⟨8, _⟩ => ⟨S16x4096, .f32⟩
  | .hbm, ⟨9, _⟩ => ⟨S32x512, .f32⟩
  | .hbm, ⟨10, _⟩ => ⟨S_, .f32⟩
  | .hbm, ⟨11, _⟩ => ⟨S32, .f32⟩
  | .hbm, ⟨12, _⟩ => ⟨S16x4096x32, .f32⟩
  | .hbm, ⟨13, _⟩ => ⟨S1x1x32, .f32⟩
  | .hbm, ⟨14, _⟩ => ⟨S16x4096x1, .f32⟩
  | .hbm, ⟨15, _⟩ => ⟨S_, .f32⟩
  | .hbm, ⟨16, _⟩ => ⟨S16x4096x32, .f32⟩
  | .hbm, ⟨17, _⟩ => ⟨S16x4096x32, .f32⟩
  | .hbm, ⟨18, _⟩ => ⟨S16x4096x32, .f32⟩
  | .hbm, ⟨19, _⟩ => ⟨S16x4096x32, .f32⟩
  | .hbm, ⟨20, _⟩ => ⟨S1x1x32, .f32⟩
  | .hbm, ⟨21, _⟩ => ⟨S16x4096x32, .f32⟩
  | .hbm, ⟨22, _⟩ => ⟨S16x4096x32, .f32⟩
  | .hbm, ⟨23, _⟩ => ⟨S16x4096x32, .f32⟩
  | .hbm, ⟨24, _⟩ => ⟨S16x4096x32, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S16x4096, .f32⟩
  | .hbm, ⟨30, _⟩ => ⟨S16x4096x1, .f32⟩
  | .hbm, ⟨31, _⟩ => ⟨S16x4096x32, .f32⟩
  | .hbm, ⟨32, _⟩ => ⟨S16x4096x32, .f32⟩
  | .hbm, ⟨33, _⟩ => ⟨S16x4096x32, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x32, .f32⟩
  | .hbm, ⟨38, _⟩ => ⟨S16x4096x32, .f32⟩
  | .hbm, ⟨39, _⟩ => ⟨S16x32x512, .f32⟩
  | .hbm, ⟨40, _⟩ => ⟨S_, .f32⟩
  | .hbm, ⟨41, _⟩ => ⟨S16x32, .f32⟩
  | .hbm, ⟨42, _⟩ => ⟨S16x32x1, .f32⟩
  | .hbm, ⟨43, _⟩ => ⟨S1x32x512, .f32⟩
  | .hbm, ⟨44, _⟩ => ⟨S16x32x512, .f32⟩
  | .hbm, ⟨45, _⟩ => ⟨S16x32x512, .f32⟩
  | .hbm, ⟨46, _⟩ => ⟨S16x32x512, .f32⟩
  | .hbm, ⟨47, _⟩ => ⟨S16x32x512, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  transposes_S16x512x4096_S16x4096x512_0_2_1 : S16x512x4096.Transposes [0, 2, 1] S16x4096x512
  reducesTo_S16x4096x512_S16x4096_d2 : S16x4096x512.ReducesTo [2] S16x4096
  h_S_ : 0 < S_.numel
  reducesTo_S32x512_S32_d1 : S32x512.ReducesTo [1] S32
  bcast_S32_S1x1x32_2 : S32.BroadcastsInDim S1x1x32 (![2] : Fin 1 → Fin S1x1x32.rank)
  bcast_S16x4096_S16x4096x1_0_1 : S16x4096.BroadcastsInDim S16x4096x1 (![0, 1] : Fin 2 → Fin S16x4096x1.rank)
  bcast_S_S16x4096x32 : S_.BroadcastsInDim S16x4096x32 (![] : Fin 0 → Fin S16x4096x32.rank)
  bcast_S16x4096x1_S16x4096x32_0_1_2 : S16x4096x1.BroadcastsInDim S16x4096x32 (![0, 1, 2] : Fin 3 → Fin S16x4096x32.rank)
  bcast_S1x1x32_S16x4096x32_0_1_2 : S1x1x32.BroadcastsInDim S16x4096x32 (![0, 1, 2] : Fin 3 → Fin S16x4096x32.rank)
  reducesTo_S16x4096x32_S16x4096_d2 : S16x4096x32.ReducesTo [2] S16x4096
  bcast_S_S16x4096 : S_.BroadcastsInDim S16x4096 (![] : Fin 0 → Fin S16x4096.rank)
  reducesTo_S16x4096x32_S16x32_d1 : S16x4096x32.ReducesTo [1] S16x32
  bcast_S16x32_S16x32x1_0_1 : S16x32.BroadcastsInDim S16x32x1 (![0, 1] : Fin 2 → Fin S16x32x1.rank)
  bcast_S32x512_S1x32x512_1_2 : S32x512.BroadcastsInDim S1x32x512 (![1, 2] : Fin 2 → Fin S1x32x512.rank)
  bcast_S16x32x1_S16x32x512_0_1_2 : S16x32x1.BroadcastsInDim S16x32x512 (![0, 1, 2] : Fin 3 → Fin S16x32x512.rank)
  bcast_S1x32x512_S16x32x512_0_1_2 : S1x32x512.BroadcastsInDim S16x32x512 (![0, 1, 2] : Fin 3 → Fin S16x32x512.rank)
  dot_S16x4096x512_S32x512_S16x4096x32_2_1_01_0_n_n_wf : DotDims.WF S16x4096x512 S32x512 S16x4096x32 [2] [1] [0, 1] [0] [] []
  dot_S16x4096x32_S16x4096x512_S16x32x512_1_1_2_2_0_0_wf : DotDims.WF S16x4096x32 S16x4096x512 S16x32x512 [1] [1] [2] [2] [0] [0]

variable [Facts₀]

def dot_S16x4096x512_S32x512_S16x4096x32_2_1_01_0_n_n : DotDims S16x4096x512 S32x512 S16x4096x32 where
  lhsContracting := [2]
  rhsContracting := [1]
  lhsNonContracting := [0, 1]
  rhsNonContracting := [0]
  lhsBatch := []
  rhsBatch := []
  wf := dot_S16x4096x512_S32x512_S16x4096x32_2_1_01_0_n_n_wf
def dot_S16x4096x32_S16x4096x512_S16x32x512_1_1_2_2_0_0 : DotDims S16x4096x32 S16x4096x512 S16x32x512 where
  lhsContracting := [1]
  rhsContracting := [1]
  lhsNonContracting := [2]
  rhsNonContracting := [2]
  lhsBatch := [0]
  rhsBatch := [0]
  wf := dot_S16x4096x32_S16x4096x512_S16x32x512_1_1_2_2_0_0_wf

class Facts : Prop extends Facts₀ where

variable [Facts]
-- ==== Proof.Spec.lean ====
/-
  Soft assignment of tokens to codewords, and the residuals aggregated per codeword, on the extended reals.

  One image is a matrix `x : 512 × N` (channel `d`, token `n`), the codebook `C : 32 × 512`, a scale per codeword
  `S : 32`. A token's scaled squared distance to codeword `k` is written expanded,
  `S k² · ((‖x · n‖² − 2 · ⟨C k, x · n⟩) + ‖C k‖²)`; its weights over the 32 codewords are the exponentials of the
  distances less their maximum, divided by their sum; codeword `k`'s aggregate at channel `d` is
  `∑ₙ w n k · x d n − (∑ₙ w n k) · C k d`.

  Everything a token's weights depend on is its own column of `x`, so the definitions take any token index type: a
  tile of tokens is the whole matrix read through an embedding, and a tile's weights are the whole matrix's at the
  embedded token, by unfolding. The one law proved here: the aggregate over 4096 tokens is the aggregate accumulated
  from zero over the two halves of 2048 (`agg_eq_tiled`) — only associativity of `+` on the extended reals and
  `0 + a = a`, so no finiteness is asked of anything.
-/
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-- `-∞`: what a maximum starts from. -/
abbrev ninf : EReal := Ideal.ofBits .f32 0xFF800000#32
/-- The factor `2` of the expanded square. -/
abbrev two : EReal := Ideal.ofBits .f32 0x40000000#32

section token

variable {ι : Type} (x : Fin 512 → ι → EReal) (C : Fin 32 → Fin 512 → EReal) (S : Fin 32 → EReal)

/-- `‖x · n‖²`. -/
def sqNorm (n : ι) : EReal := ∑ d : Fin 512, x d n * x d n
/-- `‖C k‖²`. -/
def codeSq (k : Fin 32) : EReal := ∑ d : Fin 512, C k d * C k d
/-- `⟨C k, x · n⟩`. -/
def inner (n : ι) (k : Fin 32) : EReal := ∑ d : Fin 512, C k d * x d n
/-- The scaled squared distance of token `n` to codeword `k`, expanded. -/
def dist (n : ι) (k : Fin 32) : EReal := (S k * S k) * ((sqNorm x n - two * inner x C n k) + codeSq C k)
/-- The largest of token `n`'s 32 distances. -/
def top (n : ι) : EReal := (Finset.univ : Finset (Fin 32)).fold max ninf (fun k => dist x C S n k)
/-- The exponential of a distance less the token's largest. -/
def num (n : ι) (k : Fin 32) : EReal := Ideal.exp (dist x C S n k - top x C S n)
/-- The sum of a token's 32 exponentials. -/
def den (n : ι) : EReal := ∑ k : Fin 32, num x C S n k
/-- Token `n`'s weight on codeword `k`. -/
def weight (n : ι) (k : Fin 32) : EReal := Ideal.div (num x C S n k) (den x C S n)

end token

variable (C : Fin 32 → Fin 512 → EReal) (S : Fin 32 → EReal)

/-- Codeword `k`'s aggregate at channel `d` over all 4096 tokens of an image. -/
def agg (x : Fin 512 → Fin 4096 → EReal) (k : Fin 32) (d : Fin 512) : EReal :=
  (∑ n : Fin 4096, weight x C S n k * x d n) - (∑ n : Fin 4096, weight x C S n k) * C k d

/-- A tile of 2048 tokens: its weighted sum of channel `d`, -/
def partW (x : Fin 512 → Fin 2048 → EReal) (k : Fin 32) (d : Fin 512) : EReal := ∑ n : Fin 2048, weight x C S n k * x d n
/-- and its sum of weights. -/
def partA (x : Fin 512 → Fin 2048 → EReal) (k : Fin 32) : EReal := ∑ n : Fin 2048, weight x C S n k

/-- The aggregate as two tiles accumulate it from zero: `((0 + W₀) + W₁) − ((0 + A₀) + A₁) · C k d`. -/
def aggTiled (xa xb : Fin 512 → Fin 2048 → EReal) (k : Fin 32) (d : Fin 512) : EReal :=
  ((0 + partW C S xa k d) + partW C S xb k d) - ((0 + partA C S xa k) + partA C S xb k) * C k d

/-- The aggregate over 4096 tokens is the one accumulated over its two halves. -/
theorem agg_eq_tiled (x : Fin 512 → Fin 4096 → EReal) (k : Fin 32) (d : Fin 512) :
    agg C S x k d = aggTiled C S (fun d n => x d (Fin.castAdd 2048 n)) (fun d n => x d (Fin.natAdd 2048 n)) k d := by
  unfold agg aggTiled partW partA
  rw [zero_add, zero_add]
  rw [show (∑ n : Fin 4096, weight x C S n k * x d n) = ∑ n : Fin (2048 + 2048), weight x C S n k * x d n from rfl,
    show (∑ n : Fin 4096, weight x C S n k) = ∑ n : Fin (2048 + 2048), weight x C S n k from rfl,
    Fin.sum_univ_add, Fin.sum_univ_add]
  rfl

/-- A maximum that starts from `-∞` once more is the same maximum. -/
theorem max_ninf (y : EReal) : max ninf y = y := by
  show max (Ideal.ofBits .f32 0xFF800000#32) y = y
  simp [Ideal.ofBits, Ideal.ieee]

/-- The shapes the arguments and the result arrive in. -/
abbrev SX4 : Shape := ⟨4, ![16, 512, 64, 64]⟩
abbrev SX3 : Shape := ⟨3, ![16, 512, 4096]⟩
abbrev SC : Shape := ⟨2, ![32, 512]⟩
abbrev SS : Shape := ⟨1, ![32]⟩
abbrev SE : Shape := ⟨3, ![16, 32, 512]⟩

/-- Image `b` as a `512 × 4096` matrix: the batch with its two spatial axes read as one token axis, row-major. -/
def image (h : SX4.ShapeCasts SX3) (x0 : SX4.Idx → EReal) (b : Fin 16) : Fin 512 → Fin 4096 → EReal :=
  fun d n => shapeCast SX3 x0 h (ix3 b d n)
/-- The codebook and the scales by coordinates. -/
def codes (x1 : SC.Idx → EReal) : Fin 32 → Fin 512 → EReal := fun k d => x1 (ix2 k d)
def scales (x2 : SS.Idx → EReal) : Fin 32 → EReal := fun k => x2 (ix1 k)

/-- The whole result: entry `(b, k, d)` is codeword `k`'s aggregate at channel `d` over image `b`. -/
def result (h : SX4.ShapeCasts SX3) (x0 : SX4.Idx → EReal) (x1 : SC.Idx → EReal) (x2 : SS.Idx → EReal) : SE.Idx → EReal :=
  fun i => agg (codes x1) (scales x2) (image h x0 (i 0)) (i 1) (i 2)

theorem result_apply (h : SX4.ShapeCasts SX3) (x0 : SX4.Idx → EReal) (x1 : SC.Idx → EReal) (x2 : SS.Idx → EReal)
    (b : Fin 16) (k : Fin 32) (d : Fin 512) :
    result h x0 x1 x2 (ix3 b k d) = agg (codes x1) (scales x2) (image h x0 b) k d := rfl

end Cert.SoftAssign

end
-- ==== Proof.LibAxisReads.lean ====
/-
  Reductions of a matrix along one axis, and a product with a transposed right operand, read at an index at the
  ideal values.

  For an `[a, b]` matrix of extended reals: the sum down the rows at column `q` is `∑ k, x (k, q)`, the sum along a row
  `p` is `∑ k, x (p, k)`, and the maximum down the rows at column `q` is the fold of `max` from `-∞` over `k ↦ x (k, q)`.
  For dimension numbers that contract the second axis of an `[M, K]` left operand against the second axis of an
  `[N, K]` right operand (stated as four coordinate facts a literal record proves by unfolding), entry `(p, c)` of the
  product into a zero accumulator is `∑ k, X (p, k) · W (c, k)`. General in every extent; each accumulator
  hypothesis is an equation between two copies of one word (zero for a sum, `-∞` for a maximum).
-/
import Idealize.ShloMosaic.Lib.ValueIdx
import Idealize.ShloMosaic.PureOps.Ideal.Laws

noncomputable section

namespace Cert.Lib.AxisReads

open Idealize.ShloMosaic Idealize.ShloMosaic.ValueIdx

variable {a b : ℕ}

/-- Column `q` with row `k` put back is `(k, q)`. -/
theorem lift_axis0 (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-- Row `p` with column `k` put back is `(p, k)`. -/
theorem lift_axis1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- The sum down the rows, at column `q`. -/
theorem sum_axis0 (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_axis0 h q k)

/-- The sum along row `p`. -/
theorem sum_axis1 (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_axis1 h p k)

/-- The maximum down the rows, at column `q`: the fold of `max` from `-∞`. -/
theorem max_axis0 (src : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ src 0xFF800000#32 h hφ hacc (ix1 q)
      = (Finset.univ : Finset (Fin a)).fold max (Ideal.ofBits .f32 0xFF800000#32) (fun k => src (ix2 k q)) := by
  refine (Ideal.multiReduction_maximumf_single src 0xFF800000#32 h hφ hacc (ix1 q)).trans ?_
  exact congrArg (fun f => Finset.fold max (Ideal.ofBits .f32 0xFF800000#32) f (Finset.univ : Finset (Fin a)))
    (funext fun k => congrArg src (lift_axis0 h q k))

/-- For dimension numbers contracting both operands' second axes (the four coordinate facts say so), entry `(p, c)`
    of the product into a zero accumulator is `∑ k, X (p, k) · W (c, k)`. -/
theorem matmul_rowrow {M K N : Nat} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (X : FVec Ideal ⟨2, ![M, K]⟩ φ₁) (W : FVec Ideal ⟨2, ![N, K]⟩ φ₂) (p : Fin M) (c : Fin N) :
    matmul D none X W (constant ⟨2, ![M, N]⟩ .f32 0x00000000#32) (ix2 p c)
      = ∑ k : Fin K, X (ix2 p k) * W (ix2 c k) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.AxisReads

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.Payload.lean ====
/-
  The kernel body's arithmetic, read entry by entry on the extended reals.

  At one grid point the body sees a tile `x : 512 × 2048` of an image (loaded as `[1, 512, 2048]`), the codebook
  `C : 32 × 512` and the scales as a column `[32, 1]`. Its long payload is, entry `(k, n)`, token `n`'s weight on codeword
  `k` — the three stages below (distances, exponentials less the column maximum, the quotient by the column sum) are
  that payload cut at two places, each read at `(k, n)` by the layout operations' index laws: a sum down the rows or
  along a row kept as a `[1, 2048]` row or a `[32, 1]` column and spread back is that sum at every entry. The two
  products are plain sums over the contracted axis. What the second tile of an image finally stores is then, entry
  `(k, d)`, the aggregate accumulated from zero over the image's two tiles (`stored_apply`).
-/
import proofs.«112596_j73332271612207_2_alg».proof.Proof.Gen.KernelIdeal.Skeleton
import proofs.«112596_j73332271612207_2_alg».proof.Proof.Spec
import proofs.«112596_j73332271612207_2_alg».proof.Proof.LibAxisReads
import proofs.«112596_j73332271612207_2_alg».proof.Proof.LibColumn
import proofs.«112596_j73332271612207_2_alg».proof.Proof.LibMatmulRowCol
import Idealize.ShloMosaic.Lib.ValueLayout
import Idealize.ShloMosaic.Lib.Pipeline.Value

noncomputable section

namespace Cert.KernelIdeal.Payload

open Cert.KernelIdeal Cert.KernelIdeal.Gen Cert.SoftAssign Cert.Lib.AxisReads Cert.Lib.Column Cert.LibMatmul
open Idealize.ShloMosaic Idealize.ShloMosaic.ValueIdx

/-- The tile, the codebook and the scales as the body loads them, by coordinates. -/
def xt (v3 : Vec Ideal S1x512x2048 .f32) : Fin 512 → Fin 2048 → EReal := fun d n => v3 (ix3 (0 : Fin 1) d n)
def ct (v5 : Vec Ideal S32x512 .f32) : Fin 32 → Fin 512 → EReal := fun k d => v5 (ix2 k d)
def st (v6 : Vec Ideal S32x1 .f32) : Fin 32 → EReal := fun k => v6 (ix2 k (0 : Fin 1))

variable (v3 : Vec Ideal S1x512x2048 .f32) (v5 : Vec Ideal S32x512 .f32) (v6 : Vec Ideal S32x1 .f32)

/-- The tile with its unit axis dropped reads the tile. -/
theorem pay6_apply (d : Fin 512) (n : Fin 2048) : k0_pay6 v3 (ix2 d n) = xt v3 d n :=
  shapeCast_1ab_ab_apply v3 shapeCasts_S1x512x2048_S512x2048 d n

/-- A change of format is the identity. -/
theorem pay7_apply (d : Fin 512) (n : Fin 2048) : k0_pay7 v3 (ix2 d n) = xt v3 d n :=
  pay6_apply v3 d n

/-! ## The three stages of the long payload -/

/-- Stage 1, the distances: `S² · ((‖x‖² − 2 · C x) + ‖C‖²)` as the body spells it. -/
def distV : FVec Ideal S32x2048 .f32 :=
  have v7 : FVec Ideal S32x1 .f32 := shapeCast S32x1 v6 shapeCasts_S32x1_S32x1
  have v9 : FVec Ideal S32x512 .bf16 := truncf .bf16 v5 bitsLt_bf16_f32
  have v10 : FVec Ideal S512x2048 .f32 := mulf (k0_pay6 v3) (k0_pay6 v3)
  have v11 : FVec Ideal S2048 .f32 := multiReduction .add [0] S2048 v10 0x00000000#32 reduces_S512x2048_S2048 (.inl rfl) rfl
  have v12 : FVec Ideal S1x2048 .f32 := shapeCast S1x2048 v11 shapeCasts_S2048_S1x2048
  have v13 : FVec Ideal S32x512 .f32 := mulf v5 v5
  have v14 : FVec Ideal S32 .f32 := multiReduction .add [1] S32 v13 0x00000000#32 reduces_S32x512_S32 (.inl rfl) rfl
  have v15 : FVec Ideal S32x1 .f32 := shapeCast S32x1 v14 shapeCasts_S32_S32x1
  have v16 : FVec Ideal S32x1 .f32 := mulf v7 v7
  have cst_8 : FVec Ideal S32x2048 .f32 := constant S32x2048 .f32 0x00000000#32
  have v17 : FVec Ideal S32x2048 .f32 := matmul dot_S32x512_S512x2048_S32x2048_1_0_0_1_n_n none v9 (k0_pay7 v3) cst_8
  have cst_9 : Ideal .f32 := Scalar.ofBits .f32 0x40000000#32
  have v18 : FVec Ideal S32x2048 .f32 := broadcast S32x2048 cst_9
  have v19 : FVec Ideal S32x2048 .f32 := mulf v18 v17
  have v20 : FVec Ideal S32x2048 .f32 := broadcastTo S32x2048 v12 broadcasts_S1x2048_S32x2048
  have v21 : FVec Ideal S32x2048 .f32 := subf v20 v19
  have v22 : FVec Ideal S32x2048 .f32 := broadcastTo S32x2048 v15 broadcasts_S32x1_S32x2048
  have v23 : FVec Ideal S32x2048 .f32 := addf v21 v22
  have v24 : FVec Ideal S32x2048 .f32 := broadcastTo S32x2048 v16 broadcasts_S32x1_S32x2048
  have v25 : FVec Ideal S32x2048 .f32 := mulf v24 v23
  v25

/-- A column maximum, kept as a row and spread back over the 32 rows. -/
def colMax (v : FVec Ideal S32x2048 .f32) : FVec Ideal S32x2048 .f32 :=
  broadcastTo S32x2048 (shapeCast S1x2048 (multiReduction .maximumf [0] S2048 v 0xFF800000#32 reduces_S32x2048_S2048 (.inl rfl) rfl) shapeCasts_S2048_S1x2048) broadcasts_S1x2048_S32x2048

/-- A column sum, kept as a row and spread back over the 32 rows. -/
def colSum (v : FVec Ideal S32x2048 .f32) : FVec Ideal S32x2048 .f32 :=
  broadcastTo S32x2048 (shapeCast S1x2048 (multiReduction .add [0] S2048 v 0x00000000#32 reduces_S32x2048_S2048 (.inl rfl) rfl) shapeCasts_S2048_S1x2048) broadcasts_S1x2048_S32x2048

/-- Stage 2, the exponentials of the distances less their column maximum. -/
def numV : FVec Ideal S32x2048 .f32 := exp (subf (distV v3 v5 v6) (colMax (distV v3 v5 v6)))

/-- Stage 3, the weights: each exponential over its column's sum. -/
def weightV : FVec Ideal S32x2048 .f32 := divf (numV v3 v5 v6) (colSum (numV v3 v5 v6))

/-- The body's long payload is stage 3. -/
theorem pay8_eq : k0_pay8 v3 v5 v6 = weightV v3 v5 v6 := rfl

theorem colMax_apply (v : FVec Ideal S32x2048 .f32) (k : Fin 32) (n : Fin 2048) :
    colMax v (ix2 k n) = (Finset.univ : Finset (Fin 32)).fold max ninf (fun k' => v (ix2 k' n)) :=
  (broadcastTo_1b_ab_apply _ broadcasts_S1x2048_S32x2048 k n).trans
    ((shapeCast_a_1a_apply _ shapeCasts_S2048_S1x2048 (0 : Fin 1) n).trans
      (max_axis0 v reduces_S32x2048_S2048 (.inl rfl) rfl n))

theorem colSum_apply (v : FVec Ideal S32x2048 .f32) (k : Fin 32) (n : Fin 2048) :
    colSum v (ix2 k n) = ∑ k' : Fin 32, v (ix2 k' n) :=
  (broadcastTo_1b_ab_apply _ broadcasts_S1x2048_S32x2048 k n).trans
    ((shapeCast_a_1a_apply _ shapeCasts_S2048_S1x2048 (0 : Fin 1) n).trans
      (sum_axis0 v reduces_S32x2048_S2048 (.inl rfl) rfl n))

/-! ## The stages at an entry -/

/-- The squared norms of the tile's columns, spread over the rows: `‖x · n‖²`. -/
theorem sqNorm_spread (k : Fin 32) (n : Fin 2048) :
    broadcastTo S32x2048 (shapeCast S1x2048 (multiReduction .add [0] S2048 (mulf (k0_pay6 v3) (k0_pay6 v3)) 0x00000000#32 reduces_S512x2048_S2048 (.inl rfl) rfl) shapeCasts_S2048_S1x2048) broadcasts_S1x2048_S32x2048 (ix2 k n)
      = sqNorm (xt v3) n := by
  refine (broadcastTo_1b_ab_apply _ broadcasts_S1x2048_S32x2048 k n).trans
    ((shapeCast_a_1a_apply _ shapeCasts_S2048_S1x2048 (0 : Fin 1) n).trans
      ((sum_axis0 _ reduces_S512x2048_S2048 (.inl rfl) rfl n).trans ?_))
  refine Finset.sum_congr rfl fun d _ => ?_
  show k0_pay6 v3 (ix2 d n) * k0_pay6 v3 (ix2 d n) = xt v3 d n * xt v3 d n
  rw [pay6_apply]

/-- The squared norms of the codewords, kept as a column and spread along the rows: `‖C k‖²`. -/
theorem codeSq_spread (k : Fin 32) (n : Fin 2048) :
    broadcastTo S32x2048 (shapeCast S32x1 (multiReduction .add [1] S32 (mulf v5 v5 : FVec Ideal S32x512 .f32) 0x00000000#32 reduces_S32x512_S32 (.inl rfl) rfl) shapeCasts_S32_S32x1) broadcasts_S32x1_S32x2048 (ix2 k n)
      = codeSq (ct v5) k :=
  (broadcastTo_a1_ab_apply _ broadcasts_S32x1_S32x2048 k n).trans
    ((shapeCast_a_a1_apply _ shapeCasts_S32_S32x1 k (0 : Fin 1)).trans
      (sum_axis1 (mulf v5 v5 : FVec Ideal S32x512 .f32) reduces_S32x512_S32 (.inl rfl) rfl k))

/-- The squared scales, spread along the rows: `S k²`. -/
theorem scaleSq_spread (k : Fin 32) (n : Fin 2048) :
    broadcastTo S32x2048 (mulf (shapeCast S32x1 v6 shapeCasts_S32x1_S32x1 : FVec Ideal S32x1 .f32) (shapeCast S32x1 v6 shapeCasts_S32x1_S32x1)) broadcasts_S32x1_S32x2048 (ix2 k n)
      = st v6 k * st v6 k := by
  refine (broadcastTo_a1_ab_apply _ broadcasts_S32x1_S32x2048 k n).trans ?_
  rw [shapeCast_self]
  rfl

/-- The first product: entry `(k, n)` is `⟨C k, x · n⟩`. -/
theorem inner_apply (k : Fin 32) (n : Fin 2048) :
    matmul dot_S32x512_S512x2048_S32x2048_1_0_0_1_n_n none (truncf .bf16 v5 bitsLt_bf16_f32 : FVec Ideal S32x512 .bf16) (k0_pay7 v3) (constant S32x2048 .f32 0x00000000#32) (ix2 k n)
      = inner (xt v3) (ct v5) n k := by
  refine (matmul_rowcol dot_S32x512_S512x2048_S32x2048_1_0_0_1_n_n rfl rfl ?_ ?_ ?_ ?_ _ _ k n).trans ?_
  · intro i q
    unfold DotDims.lhsIdx
    rw [dif_neg (show ¬(0 : Fin S32x512.rank) ∈ dot_S32x512_S512x2048_S32x2048_1_0_0_1_n_n.lhsBatch by decide), dif_pos (show (0 : Fin S32x512.rank) ∈ dot_S32x512_S512x2048_S32x2048_1_0_0_1_n_n.lhsNonContracting by decide)]
    rfl
  · intro i q
    exact dot_S32x512_S512x2048_S32x2048_1_0_0_1_n_n.lhsIdx_val_of_single rfl i q
  · intro i q
    exact dot_S32x512_S512x2048_S32x2048_1_0_0_1_n_n.rhsIdx_val_of_single rfl i q
  · intro i q
    unfold DotDims.rhsIdx
    rw [dif_neg (show ¬(1 : Fin S512x2048.rank) ∈ dot_S32x512_S512x2048_S32x2048_1_0_0_1_n_n.rhsBatch by decide), dif_pos (show (1 : Fin S512x2048.rank) ∈ dot_S32x512_S512x2048_S32x2048_1_0_0_1_n_n.rhsNonContracting by decide)]
    rfl
  · refine Finset.sum_congr rfl fun d _ => ?_
    show v5 (ix2 k d) * k0_pay7 v3 (ix2 d n) = ct v5 k d * xt v3 d n
    rw [pay7_apply]
    rfl

/-- Stage 1 at `(k, n)`: token `n`'s distance to codeword `k`. -/
theorem distV_apply (k : Fin 32) (n : Fin 2048) :
    distV v3 v5 v6 (ix2 k n) = dist (xt v3) (ct v5) (st v6) n k :=
  congr (congrArg HMul.hMul (scaleSq_spread v6 k n))
    (congr (congrArg HAdd.hAdd (congr (congrArg HSub.hSub (sqNorm_spread v3 k n)) (congrArg (two * ·) (inner_apply v3 v5 k n))))
      (codeSq_spread v5 k n))

/-- Stage 2 at `(k, n)`. -/
theorem numV_apply (k : Fin 32) (n : Fin 2048) :
    numV v3 v5 v6 (ix2 k n) = num (xt v3) (ct v5) (st v6) n k := by
  have eM : colMax (distV v3 v5 v6) (ix2 k n) = top (xt v3) (ct v5) (st v6) n :=
    (colMax_apply _ k n).trans
      (congrArg (fun f => Finset.fold max ninf f (Finset.univ : Finset (Fin 32))) (funext fun k' => distV_apply v3 v5 v6 k' n))
  show Ideal.exp (distV v3 v5 v6 (ix2 k n) - colMax (distV v3 v5 v6) (ix2 k n)) = _
  rw [distV_apply, eM]
  rfl

/-- Stage 3 at `(k, n)`: token `n`'s weight on codeword `k`. -/
theorem weightV_apply (k : Fin 32) (n : Fin 2048) :
    weightV v3 v5 v6 (ix2 k n) = weight (xt v3) (ct v5) (st v6) n k := by
  have eS : colSum (numV v3 v5 v6) (ix2 k n) = den (xt v3) (ct v5) (st v6) n :=
    (colSum_apply _ k n).trans (Finset.sum_congr rfl fun k' _ => numV_apply v3 v5 v6 k' n)
  show Ideal.div (numV v3 v5 v6 (ix2 k n)) (colSum (numV v3 v5 v6) (ix2 k n)) = _
  rw [numV_apply, eS]
  rfl

/-! ## The tile's two partial sums -/

/-- The second product: entry `(k, d)` is the tile's weighted sum of channel `d`. -/
theorem pay9_apply (k : Fin 32) (d : Fin 512) :
    k0_pay9 v3 v5 v6 (ix2 k d) = partW (ct v5) (st v6) (xt v3) k d := by
  show matmul dot_S32x2048_S512x2048_S32x512_1_1_0_0_n_n none (truncf .bf16 (k0_pay8 v3 v5 v6) bitsLt_bf16_f32 : FVec Ideal S32x2048 .bf16) (k0_pay7 v3) (constant S32x512 .f32 0x00000000#32) (ix2 k d) = _
  refine (matmul_rowrow dot_S32x2048_S512x2048_S32x512_1_1_0_0_n_n rfl rfl ?_ ?_ ?_ ?_ _ _ k d).trans ?_
  · intro i q
    unfold DotDims.lhsIdx
    rw [dif_neg (show ¬(0 : Fin S32x2048.rank) ∈ dot_S32x2048_S512x2048_S32x512_1_1_0_0_n_n.lhsBatch by decide), dif_pos (show (0 : Fin S32x2048.rank) ∈ dot_S32x2048_S512x2048_S32x512_1_1_0_0_n_n.lhsNonContracting by decide)]
    rfl
  · intro i q
    exact dot_S32x2048_S512x2048_S32x512_1_1_0_0_n_n.lhsIdx_val_of_single rfl i q
  · intro i q
    unfold DotDims.rhsIdx
    rw [dif_neg (show ¬(0 : Fin S512x2048.rank) ∈ dot_S32x2048_S512x2048_S32x512_1_1_0_0_n_n.rhsBatch by decide), dif_pos (show (0 : Fin S512x2048.rank) ∈ dot_S32x2048_S512x2048_S32x512_1_1_0_0_n_n.rhsNonContracting by decide)]
    rfl
  · intro i q
    exact dot_S32x2048_S512x2048_S32x512_1_1_0_0_n_n.rhsIdx_val_of_single rfl i q
  · refine Finset.sum_congr rfl fun n _ => ?_
    show k0_pay8 v3 v5 v6 (ix2 k n) * k0_pay7 v3 (ix2 d n) = weight (xt v3) (ct v5) (st v6) n k * xt v3 d n
    rw [pay8_eq, weightV_apply, pay7_apply]

/-- The weights summed along a row, kept as a column: entry `(k, 0)` is the tile's sum of weights on codeword `k`. -/
theorem pay10_apply (k : Fin 32) :
    k0_pay10 v3 v5 v6 (ix2 k (0 : Fin 1)) = partA (ct v5) (st v6) (xt v3) k := by
  show shapeCast S32x1 (multiReduction .add [1] S32 (k0_pay8 v3 v5 v6) 0x00000000#32 reduces_S32x2048_S32 (.inl rfl) rfl) shapeCasts_S32_S32x1 (ix2 k (0 : Fin 1)) = _
  refine (shapeCast_a_a1_apply _ shapeCasts_S32_S32x1 k (0 : Fin 1)).trans
    ((sum_axis1 (k0_pay8 v3 v5 v6) reduces_S32x2048_S32 (.inl rfl) rfl k).trans ?_)
  refine Finset.sum_congr rfl fun n _ => ?_
  rw [pay8_eq, weightV_apply]

/-! ## The accumulations and the final subtraction -/

/-- An accumulator plus a partial sum, entry by entry. -/
theorem pay1_apply (v36 : FVec Ideal S32x512 .f32) (v39 : Vec Ideal S32x512 .f32) (k : Fin 32) (d : Fin 512) :
    k0_pay1 v36 v39 (ix2 k d) = v39 (ix2 k d) + v36 (ix2 k d) := by
  show shapeCast S32x512 (addf v39 v36) shapeCasts_S32x512_S32x512 (ix2 k d) = _
  rw [shapeCast_self]
  rfl

theorem pay2_apply (v38 : FVec Ideal S32x1 .f32) (v44 : Vec Ideal S32x1 .f32) (k : Fin 32) :
    k0_pay2 v38 v44 (ix2 k (0 : Fin 1)) = v44 (ix2 k (0 : Fin 1)) + v38 (ix2 k (0 : Fin 1)) := by
  show shapeCast S32x1 (addf v44 v38) shapeCasts_S32x1_S32x1 (ix2 k (0 : Fin 1)) = _
  rw [shapeCast_self]
  rfl

/-- The zero blocks. -/
theorem pay4_apply (k : Fin 32) (d : Fin 512) : k0_pay4 (F := Ideal) (ix2 k d) = 0 := by
  show shapeCast S32x512 (broadcast S32x512 (Scalar.ofBits .f32 0x00000000#32 : Ideal .f32)) shapeCasts_S32x512_S32x512 (ix2 k d) = _
  rw [shapeCast_self]
  exact Ideal.ofBits_zero_f32

theorem pay5_apply (k : Fin 32) : k0_pay5 (F := Ideal) (ix2 k (0 : Fin 1)) = 0 := by
  show shapeCast S32x1 (broadcast S32x1 (Scalar.ofBits .f32 0x00000000#32 : Ideal .f32)) shapeCasts_S32x1_S32x1 (ix2 k (0 : Fin 1)) = _
  rw [shapeCast_self]
  exact Ideal.ofBits_zero_f32

/-- The output block: the first accumulator less the second, spread along its row, times the codebook. -/
theorem pay3_apply (v52 : Vec Ideal S32x512 .f32) (v53 : Vec Ideal S32x1 .f32) (k : Fin 32) (d : Fin 512) :
    k0_pay3 v5 v52 v53 (ix3 (0 : Fin 1) k d) = v52 (ix2 k d) - v53 (ix2 k (0 : Fin 1)) * v5 (ix2 k d) := by
  show shapeCast S1x32x512 (subf (v52 : FVec Ideal S32x512 .f32) (mulf (broadcastTo S32x512 v53 broadcasts_S32x1_S32x512 : FVec Ideal S32x512 .f32) v5)) shapeCasts_S32x512_S1x32x512 (ix3 (0 : Fin 1) k d) = _
  refine (shapeCast_ab_1ab_apply _ shapeCasts_S32x512_S1x32x512 (0 : Fin 1) k d).trans ?_
  show v52 (ix2 k d) - (broadcastTo S32x512 v53 broadcasts_S32x1_S32x512 : FVec Ideal S32x512 .f32) (ix2 k d) * v5 (ix2 k d) = _
  rw [broadcastTo_a1_ab_apply]

/-- WHAT AN IMAGE'S SECOND TILE STORES: with `xA`, `xB` the image's first and second tile, the output block's entry
    `(0, k, d)` is codeword `k`'s aggregate at channel `d`, accumulated from zero over the two tiles. -/
theorem stored_apply (xA xB : Vec Ideal S1x512x2048 .f32) (k : Fin 32) (d : Fin 512) :
    k0_pay3 v5 (k0_pay1 (k0_pay9 xB v5 v6) (k0_pay1 (k0_pay9 xA v5 v6) (k0_pay4 (F := Ideal))))
        (k0_pay2 (k0_pay10 xB v5 v6) (k0_pay2 (k0_pay10 xA v5 v6) (k0_pay5 (F := Ideal)))) (ix3 (0 : Fin 1) k d)
      = aggTiled (ct v5) (st v6) (xt xA) (xt xB) k d := by
  rw [pay3_apply, pay1_apply, pay1_apply, pay2_apply, pay2_apply, pay4_apply, pay5_apply,
    pay9_apply, pay9_apply, pay10_apply, pay10_apply]
  rfl

end Cert.KernelIdeal.Payload

end
-- ==== Proof.Pieces.lean ====
/-
  What each of the kernel body's two control cases leaves in the two scratch accumulators and in the output's
  staging buffer, stated over the body's named payloads, for any float values.

  The body, on a 16 x 2 grid, treats the two tiles of an image differently. At the first tile (case A) it stores the
  zero blocks `k0_pay4`, `k0_pay5` into the accumulators [32,512] and [32,1], loads them back, and stores the
  accumulators plus the tile's partial sums (`k0_pay1 (k0_pay9 …)`, `k0_pay2 (k0_pay10 …)`). At the second tile
  (case B) it loads the accumulators as the first tile left them (`xs0`, `xs1`), stores them plus this tile's partial
  sums, loads both back, and stores `k0_pay3` of the codes block and the two loaded accumulators into the output block
  [1,32,512].

  Every store and load here goes through the whole-shape rectangle at zero offsets. Such a store, made last, leaves
  exactly its payload (`View.canon_cons_unit_zero`); such a load of what one such store left reads that payload
  (`View.readCov_unit_zero`); such a load of a whole buffer holding `x` reads `x` (`IsWhole.read_unread`,
  `View.ld_unit_zero`). No payload is opened: the five statements are equalities between applications of the
  payload names.
-/
import proofs.«112596_j73332271612207_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a rank-2 rectangle, as the constant function. -/
theorem hz2 : (![0, 0] : Fin 2 → Nat) = fun _ => 0 := funext fun a => by fin_cases a <;> rfl

/-- The zero offsets of a rank-3 rectangle, as the constant function. -/
theorem hz3 : (![0, 0, 0] : Fin 3 → Nat) = fun _ => 0 := funext fun a => by fin_cases a <;> rfl

/-- CASE A, accumulator [32,512]: two covering stores, the zero block then the sum; the second is what remains, and
    the accumulator it adds to is the zero block read back: `0 + (this tile's weighted sum)` as payload names. -/
theorem sout_A_0 (c : Dev nD) (i : grid0.Coords) (arg2 : Memref sig .tc .vmem S1x512x2048 .f32) (harg2 : arg2.IsWhole) (arg3 : Memref sig .tc .vmem S32x512 .f32) (harg3 : arg3.IsWhole) (arg4 : Memref sig .tc .vmem S32x1 .f32) (harg4 : arg4.IsWhole) (arg5 : Memref sig .tc .vmem S1x32x512 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i) (x0 : Vec F S1x512x2048 .f32) (x1 : Vec F S32x512 .f32) (x2 : Vec F S32x1 .f32) :
    sout0_A_0 c i arg2 harg2 arg3 harg3 arg4 harg4 arg5 harg5 arg6 harg6 arg7 harg7 hc0 hc1 x0 x1 x2 = k0_pay1 (k0_pay9 x0 x1 x2) (k0_pay4 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S32x512) hz2, View.readCov_unit_zero (S := S32x512) _ hz2]
  simp only [View.readAt_eq_ld, harg2.read_unread, harg3.read_unread, harg4.read_unread,
    View.ld_unit_zero (S := S1x512x2048) hz3, View.ld_unit_zero (S := S32x512) hz2, View.ld_unit_zero (S := S32x1) hz2]

/-- CASE A, accumulator [32,1]: likewise, `0 + (this tile's row sums of the assignment weights)`. -/
theorem sout_A_1 (c : Dev nD) (i : grid0.Coords) (arg2 : Memref sig .tc .vmem S1x512x2048 .f32) (harg2 : arg2.IsWhole) (arg3 : Memref sig .tc .vmem S32x512 .f32) (harg3 : arg3.IsWhole) (arg4 : Memref sig .tc .vmem S32x1 .f32) (harg4 : arg4.IsWhole) (arg5 : Memref sig .tc .vmem S1x32x512 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i) (x0 : Vec F S1x512x2048 .f32) (x1 : Vec F S32x512 .f32) (x2 : Vec F S32x1 .f32) :
    sout0_A_1 c i arg2 harg2 arg3 harg3 arg4 harg4 arg5 harg5 arg6 harg6 arg7 harg7 hc0 hc1 x0 x1 x2 = k0_pay2 (k0_pay10 x0 x1 x2) (k0_pay5 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S32x1) hz2, View.readCov_unit_zero (S := S32x1) _ hz2]
  simp only [View.readAt_eq_ld, harg2.read_unread, harg3.read_unread, harg4.read_unread,
    View.ld_unit_zero (S := S1x512x2048) hz3, View.ld_unit_zero (S := S32x512) hz2, View.ld_unit_zero (S := S32x1) hz2]

/-- CASE B, accumulator [32,512]: one covering store of the accumulator as the tile before left it (`xs0`) plus this
    tile's weighted sum. -/
theorem sout_B_0 (c : Dev nD) (i : grid0.Coords) (arg2 : Memref sig .tc .vmem S1x512x2048 .f32) (harg2 : arg2.IsWhole) (arg3 : Memref sig .tc .vmem S32x512 .f32) (harg3 : arg3.IsWhole) (arg4 : Memref sig .tc .vmem S32x1 .f32) (harg4 : arg4.IsWhole) (arg5 : Memref sig .tc .vmem S1x32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i) (x0 : Vec F S1x512x2048 .f32) (x1 : Vec F S32x512 .f32) (x2 : Vec F S32x1 .f32) (xs0 : Vec F S32x512 .f32) (xs1 : Vec F S32x1 .f32) :
    sout0_B_0 c i arg2 harg2 arg3 harg3 arg4 harg4 arg5 harg5 arg6 harg6 arg7 harg7 hc0 hc1 x0 x1 x2 xs0 xs1 = k0_pay1 (k0_pay9 x0 x1 x2) xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S32x512) hz2]
  simp only [View.readAt_eq_ld, harg2.read_unread, harg3.read_unread, harg4.read_unread, harg6.read_unread,
    View.ld_unit_zero (S := S1x512x2048) hz3, View.ld_unit_zero (S := S32x512) hz2, View.ld_unit_zero (S := S32x1) hz2]

/-- CASE B, accumulator [32,1]: one covering store of `xs1` plus this tile's row sums of the assignment weights. -/
theorem sout_B_1 (c : Dev nD) (i : grid0.Coords) (arg2 : Memref sig .tc .vmem S1x512x2048 .f32) (harg2 : arg2.IsWhole) (arg3 : Memref sig .tc .vmem S32x512 .f32) (harg3 : arg3.IsWhole) (arg4 : Memref sig .tc .vmem S32x1 .f32) (harg4 : arg4.IsWhole) (arg5 : Memref sig .tc .vmem S1x32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i) (x0 : Vec F S1x512x2048 .f32) (x1 : Vec F S32x512 .f32) (x2 : Vec F S32x1 .f32) (xs0 : Vec F S32x512 .f32) (xs1 : Vec F S32x1 .f32) :
    sout0_B_1 c i arg2 harg2 arg3 harg3 arg4 harg4 arg5 harg5 arg6 harg6 arg7 harg7 hc0 hc1 x0 x1 x2 xs0 xs1 = k0_pay2 (k0_pay10 x0 x1 x2) xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S32x1) hz2]
  simp only [View.readAt_eq_ld, harg2.read_unread, harg3.read_unread, harg4.read_unread, harg7.read_unread,
    View.ld_unit_zero (S := S1x512x2048) hz3, View.ld_unit_zero (S := S32x512) hz2, View.ld_unit_zero (S := S32x1) hz2]

/-- CASE B, the output block [1,32,512]: one covering store of `k0_pay3` of the codes block `x1` and of the two
    accumulators loaded back after their stores of this same case, each of which reads what that store wrote. -/
theorem out_B_3 (c : Dev nD) (i : grid0.Coords) (arg2 : Memref sig .tc .vmem S1x512x2048 .f32) (harg2 : arg2.IsWhole) (arg3 : Memref sig .tc .vmem S32x512 .f32) (harg3 : arg3.IsWhole) (arg4 : Memref sig .tc .vmem S32x1 .f32) (harg4 : arg4.IsWhole) (arg5 : Memref sig .tc .vmem S1x32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i) (x0 : Vec F S1x512x2048 .f32) (x1 : Vec F S32x512 .f32) (x2 : Vec F S32x1 .f32) (xs0 : Vec F S32x512 .f32) (xs1 : Vec F S32x1 .f32) :
    out0_B_3 c i arg2 harg2 arg3 harg3 arg4 harg4 arg5 harg5 arg6 harg6 arg7 harg7 hc0 hc1 x0 x1 x2 xs0 xs1 = k0_pay3 x1 (k0_pay1 (k0_pay9 x0 x1 x2) xs0) (k0_pay2 (k0_pay10 x0 x1 x2) xs1) := by
  unfold out0_B_3
  rw [View.read_writes_eq_canon _ _ _ (cover0_B_3 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S1x32x512) hz3, View.readCov_unit_zero (S := S32x512) _ hz2,
    View.readCov_unit_zero (S := S32x1) _ hz2]
  simp only [View.readAt_eq_ld, harg2.read_unread, harg3.read_unread, harg4.read_unread, harg6.read_unread,
    harg7.read_unread, View.ld_unit_zero (S := S1x512x2048) hz3, View.ld_unit_zero (S := S32x512) hz2,
    View.ld_unit_zero (S := S32x1) hz2]

end Cert.KernelIdeal.Pieces

end
-- ==== Proof.Blocks.lean ====
/-
  The geometry of the kernel's windows, for any float instance.

  The grid is 16 × 2, row-major: point `t` works on image `t / 2`, token tile `t % 2`. A block's array coordinate on
  an axis is always (block index) × (block size) + (the coordinate inside the block). So
  • the first input's block at `t` is rows `(t / 2, ·, 2048 · (t % 2) + ·)` of the token-major array, which is the
    batch argument with its two spatial axes read as one (a shape cast, kept as a term);
  • the codebook's block is the whole argument at every point;
  • the scale column's block is the whole column, the scale vector shape-cast: entry `(k, 0)` is the vector's `k`;
  • the output's block at `t` is image `t / 2` of the result, written back at the odd points only. The blocks of
    the odd points `2·b + 1`, `b < 16`, cover the result array, so once every written-back block is a restriction
    of one function `G`, the array ends as `G`.
-/
import proofs.«112596_j73332271612207_2_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The windows' block indices at a grid point: row-major, point `t` is image `t / 2`, tile `t % 2`. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0 :=
  (by decide +kernel : ∀ t : Fin grid0.N, _)

theorem iblk1_eq (c : Dev nD) (t : Fin cfg0.N) : (iblk m c 1 t : Vec F S32x512 .f32) = m ((c : Thread nD τ).loc main_arg1) := by
  obtain ⟨-, -, -, e0, e1, -⟩ := idx_facts t
  funext j
  unfold iblk
  rw [View.read_apply]
  show V m c main_arg1 _ = m ((c : Thread nD τ).loc main_arg1) j
  rw [V_main_arg1]
  congr 1
  funext a
  apply Fin.ext
  match a with
  | ⟨0, _⟩ => show win0_1.index t (0 : Fin 2) * 32 + 1 * (j 0).val = (j 0).val; rw [e0]; omega
  | ⟨1, _⟩ => show win0_1.index t (1 : Fin 2) * 512 + 1 * (j 1).val = (j 1).val; rw [e1]; omega

/-- The scale column as the kernel finds it: the scale vector, shape-cast. -/
theorem V_main_v1 (c : Dev nD) :
    (V m c main_v1 : S32x1.Idx → Elt F .f32) = shapeCast S32x1 (m ((c : Thread nD τ).loc main_arg2)) shapeCasts_S32_S32x1 := by
  dsimp only [Gen.V, Gen.hostOps0]; after_results; rfl

/-- The token-major array as the kernel finds it: the batch, shape-cast. -/
theorem V_main_v0 (c : Dev nD) :
    (V m c main_v0 : S16x512x4096.Idx → Elt F .f32)
      = shapeCast S16x512x4096 (m ((c : Thread nD τ).loc main_arg0)) shapeCasts_S16x512x64x64_S16x512x4096 := by
  dsimp only [Gen.V, Gen.hostOps0]; after_results; rfl

/-- A vector shape-cast to a column reads, at `(k, 0)`, the vector at `k`. -/
theorem shapeCast_col_apply {α : Type} (x : S32.Idx → α) (h : S32.ShapeCasts S32x1) (k : Fin 32) (u : Fin 1) :
    shapeCast S32x1 x h (ix2 k u) = x (ix1 k) :=
  shapeCast_apply x h _ _ (by
    have hu : u.val = 0 := by omega
    rw [Shape.rowMajor_val_two, Shape.rowMajor_val_one]
    show k.val = k.val * 1 + u.val
    omega)

theorem iblk2_apply (c : Dev nD) (t : Fin cfg0.N) (k : Fin 32) :
    (iblk m c 2 t : Vec F S32x1 .f32) (ix2 k (0 : Fin 1)) = m ((c : Thread nD τ).loc main_arg2) (ix1 k) := by
  obtain ⟨-, -, -, -, -, e0, e1, -⟩ := idx_facts t
  unfold iblk
  rw [View.read_apply]
  show V m c main_v1 _ = _
  rw [V_main_v1]
  refine (congrArg _ ?_).trans (shapeCast_col_apply _ _ k (0 : Fin 1))
  funext a
  apply Fin.ext
  match a with
  | ⟨0, _⟩ => show win0_2.index t (0 : Fin 2) * 32 + 1 * k.val = k.val; rw [e0]; omega
  | ⟨1, _⟩ => show win0_2.index t (1 : Fin 2) * 1 + 1 * 0 = 0; rw [e1]

/-- the image a grid point belongs to, and the array token a tile's local token is -/
def imgOf (t : Fin cfg0.N) : Fin 16 := ⟨t.val / 2, by have h : t.val < 32 := lt_of_lt_of_eq t.isLt (show cfg0.N = 32 from N_0); omega⟩
def tokOf (t : Fin cfg0.N) (n : Fin 2048) : Fin 4096 := ⟨2048 * (t.val % 2) + n.val, by have := n.isLt; omega⟩

theorem iblk0_apply (c : Dev nD) (t : Fin cfg0.N) (d : Fin 512) (n : Fin 2048) :
    (iblk m c 0 t : Vec F S1x512x2048 .f32) (ix3 (0 : Fin 1) d n)
      = shapeCast S16x512x4096 (m ((c : Thread nD τ).loc main_arg0)) shapeCasts_S16x512x64x64_S16x512x4096 (ix3 (imgOf t) d (tokOf t n)) := by
  obtain ⟨e0, e1, e2, -⟩ := idx_facts t
  unfold iblk
  rw [View.read_apply]
  show V m c main_v0 _ = _
  rw [V_main_v0]
  refine congrArg _ ?_
  funext a
  apply Fin.ext
  match a with
  | ⟨0, _⟩ => show win0_0.index t (0 : Fin 3) * 1 + 1 * 0 = t.val / 2; rw [e0]; omega
  | ⟨1, _⟩ => show win0_0.index t (1 : Fin 3) * 512 + 1 * d.val = d.val; rw [e1]; omega
  | ⟨2, _⟩ => show win0_0.index t (2 : Fin 3) * 2048 + 1 * n.val = 2048 * (t.val % 2) + n.val; rw [e2]; omega

/-- What an odd point writes back is its image's block of `G`: the window's blocks tile the array, so the
    write-back is the staging buffer itself, and a block's array coordinate is index × size + the coordinate inside. -/
theorem flushed3_eq (c : Dev nD) (G : Buf (Elt F) ((c : Thread nD τ).loc main_v2))
    (hG : ∀ t : Fin cfg0.N, t.val % 2 = 1 → ∀ (k : Fin 32) (d : Fin 512),
        ((outsAt0 m c t.val t.isLt).1 : Vec F S1x32x512 .f32) (ix3 (0 : Fin 1) k d) = G (ix3 (imgOf t) k d))
    (t : Fin cfg0.N) (ht : t.val % 2 = 1) :
    (dats m 0 c).flushed 3 t = ((cfg0.win 3).blk t).view.read (Elt F) G := by
  obtain ⟨-, -, -, -, -, -, -, e0, e1, e2⟩ := idx_facts t
  rw [Value.flushed3]
  funext y
  obtain ⟨u, k, d, rfl⟩ : ∃ (u : Fin 1) (k : Fin 32) (d : Fin 512), y = ix3 u k d :=
    ⟨y 0, y 1, y 2, eq_ix3 (n0 := 1) (n1 := 32) (n2 := 512) y⟩
  obtain rfl : u = 0 := Subsingleton.elim _ _
  rw [View.read_apply]
  show ((outsAt0 m c t.val t.isLt).1 : Vec F S1x32x512 .f32) _ = G _
  refine (congrArg _ ?_).trans ((hG t ht k d).trans (congrArg G ?_))
  · funext a
    apply Fin.ext
    match a with
    | ⟨0, _⟩ => rfl
    | ⟨1, _⟩ => rfl
    | ⟨2, _⟩ => rfl
  · funext a
    apply Fin.ext
    match a with
    | ⟨0, _⟩ => show t.val / 2 = win0_3.index t (0 : Fin 3) * 1 + 1 * 0; rw [e0]; omega
    | ⟨1, _⟩ => show k.val = win0_3.index t (1 : Fin 3) * 32 + 1 * k.val; rw [e1]; omega
    | ⟨2, _⟩ => show d.val = win0_3.index t (2 : Fin 3) * 512 + 1 * d.val; rw [e2]; omega

/-- An index of the array is in point `t`'s block iff each coordinate is in the block's range on its axis. -/
theorem mem_blk3 (t : Fin cfg0.N) (i : S16x32x512.Idx) :
    i ∈ ((cfg0.win 3).blk t).view.set ↔ ∀ a : Fin 3, win0_3.index t a * S1x32x512.size a ≤ (i a).val ∧ (i a).val < win0_3.index t a * S1x32x512.size a + S1x32x512.size a := by
  show i ∈ ((View.whole main_v2).slice (win0_3.rect t)).set ↔ _
  rw [View.set_slice_whole, Rect.mem_set_unit]
  exact Iff.rfl

/-- Every index `(b, k, d)` of the array lies in the block of the odd point `2·b + 1`. -/
theorem cover3 (i : S16x32x512.Idx) :
    ∃ t : Fin cfg0.N, (cfg0.win 3).flush t = true ∧ i ∈ ((cfg0.win 3).blk t).view.set := by
  have h0 : (i 0).val < 16 := (i 0).isLt
  have h1 : (i 1).val < 32 := (i 1).isLt
  have h2 : (i 2).val < 512 := (i 2).isLt
  have hlt : 2 * (i 0).val + 1 < cfg0.N := by rw [show cfg0.N = 32 from N_0]; omega
  have hv : (⟨2 * (i 0).val + 1, hlt⟩ : Fin cfg0.N).val = 2 * (i 0).val + 1 := rfl
  obtain ⟨-, -, -, -, -, -, -, e0, e1, e2⟩ := idx_facts ⟨2 * (i 0).val + 1, hlt⟩
  refine ⟨⟨2 * (i 0).val + 1, hlt⟩, (flush0_3 _).mpr (by rw [hv]; omega), ?_⟩
  rw [mem_blk3]
  intro a
  match a with
  | ⟨0, _⟩ => show win0_3.index _ (0 : Fin 3) * 1 ≤ (i 0).val ∧ (i 0).val < win0_3.index _ (0 : Fin 3) * 1 + 1; rw [e0, hv]; omega
  | ⟨1, _⟩ => show win0_3.index _ (1 : Fin 3) * 32 ≤ (i 1).val ∧ (i 1).val < win0_3.index _ (1 : Fin 3) * 32 + 32; rw [e1]; omega
  | ⟨2, _⟩ => show win0_3.index _ (2 : Fin 3) * 512 ≤ (i 2).val ∧ (i 2).val < win0_3.index _ (2 : Fin 3) * 512 + 512; rw [e2]; omega

/-- the output array ends as G as soon as, at every odd point, what the body left in the output's staging buffer
    (outsAt0's first component) is G's block of that point's image -/
theorem final3 (c : Dev nD) (G : Buf (Elt F) ((c : Thread nD τ).loc main_v2))
    (hG : ∀ t : Fin cfg0.N, t.val % 2 = 1 → ∀ (k : Fin 32) (d : Fin 512),
        ((outsAt0 m c t.val t.isLt).1 : Vec F S1x32x512 .f32) (ix3 (0 : Fin 1) k d) = G (ix3 (imgOf t) k d)) :
    (dats m 0 c).arrAt 3 cfg0.N = G :=
  (dats m 0 c).arrAt_eq_of_cover 3 G (fun t hf => flushed3_eq m c G hG t ((flush0_3 t).mp hf)) cover3

end Cert.KernelIdeal.Blocks

end
-- ==== Proof.RunValue.lean ====
/-
  The kernel's result array, on the extended reals, is the soft assignment's aggregate.

  Grid point `t` works on image `t / 2`, tile `t % 2`. An image's first tile resets the two accumulators and adds its
  partial sums; its second tile adds its own and stores accumulator one less accumulator two times the codebook. So
  what an odd point leaves in the output's block is, entry `(k, d)`, the aggregate accumulated from zero over the
  image's two tiles of 2048 tokens — the tiles being the image's columns `n` and `2048 + n` — which is the aggregate
  over all 4096 tokens (`Cert.SoftAssign.agg_eq_tiled`). Every index of the result lies in one odd point's block, so
  the array ends as `Cert.SoftAssign.result` of the three arguments.
-/
import proofs.«112596_j73332271612207_2_alg».proof.Proof.Gen.KernelIdeal.Value
import proofs.«112596_j73332271612207_2_alg».proof.Proof.Spec
import proofs.«112596_j73332271612207_2_alg».proof.Proof.Payload
import proofs.«112596_j73332271612207_2_alg».proof.Proof.Pieces
import proofs.«112596_j73332271612207_2_alg».proof.Proof.Blocks

set_option maxRecDepth 16384

noncomputable section

namespace Cert.KernelIdeal.RunValue

open Cert.KernelIdeal Cert.KernelIdeal.Gen Cert.SoftAssign Cert.KernelIdeal.Payload Cert.KernelIdeal.Pieces Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays as launched. -/
abbrev argX (c : Dev nD) : SX4.Idx → EReal := m ((c : Thread nD τ).loc main_arg0)
abbrev argC (c : Dev nD) : SC.Idx → EReal := m ((c : Thread nD τ).loc main_arg1)
abbrev argS (c : Dev nD) : SS.Idx → EReal := m ((c : Thread nD τ).loc main_arg2)

/-- The result array the kernel ends with. -/
def G (c : Dev nD) : Buf (Elt Ideal) ((c : Thread nD τ).loc main_v2) :=
  result shapeCasts_S16x512x64x64_S16x512x4096 (argX m c) (argC m c) (argS m c)

/-- The point before an odd point. -/
def prev (t : Fin cfg0.N) : Fin cfg0.N := ⟨t.val - 1, Nat.lt_of_le_of_lt (Nat.sub_le _ _) t.isLt⟩

/-- WHAT AN ODD POINT LEAVES in the output's staging buffer, as the body's payloads of this point's and the point
    before's input blocks. -/
theorem left_odd (c : Dev nD) (t : Fin cfg0.N) (h1 : t.val % 2 = 1) :
    ((outsAt0 m c t.val t.isLt).1 : Vec Ideal S1x32x512 .f32)
      = k0_pay3 (iblk m c 1 t)
          (k0_pay1 (k0_pay9 (iblk m c 0 t) (iblk m c 1 t) (iblk m c 2 t))
            (k0_pay1 (k0_pay9 (iblk m c 0 (prev t)) (iblk m c 1 (prev t)) (iblk m c 2 (prev t))) (k0_pay4 (F := Ideal))))
          (k0_pay2 (k0_pay10 (iblk m c 0 t) (iblk m c 1 t) (iblk m c 2 t))
            (k0_pay2 (k0_pay10 (iblk m c 0 (prev t)) (iblk m c 1 (prev t)) (iblk m c 2 (prev t))) (k0_pay5 (F := Ideal)))) := by
  have h0 : ¬t.val % 2 = 0 := by omega
  have h0' : (prev t).val % 2 = 0 := by show (t.val - 1) % 2 = 0; omega
  have h1' : ¬(prev t).val % 2 = 1 := by show ¬(t.val - 1) % 2 = 1; omega
  have eA : outsAt0 m c (t.val - 1) (Nat.lt_of_le_of_lt (Nat.sub_le _ _) t.isLt) = _ := outsAt0_A m c (prev t) h0' h1'
  rw [outsAt0_B m c t h0 h1, eA]
  dsimp only
  rw [out_B_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t),
    sout_A_0 (F := Ideal) c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) ((hcond0_0 (prev t)).mpr h0') (fun h => h1' ((hcond0_1 (prev t)).mp h)) (iblk m c 0 (prev t)) (iblk m c 1 (prev t)) (iblk m c 2 (prev t)),
    sout_A_1 (F := Ideal) c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) scM0_1 (Memref.isWhole_whole _) ((hcond0_0 (prev t)).mpr h0') (fun h => h1' ((hcond0_1 (prev t)).mp h)) (iblk m c 0 (prev t)) (iblk m c 1 (prev t)) (iblk m c 2 (prev t))]

/-- The codebook's and the scale column's blocks do not depend on the point. -/
theorem iblk1_prev (c : Dev nD) (t : Fin cfg0.N) : (iblk m c 1 (prev t) : Vec Ideal S32x512 .f32) = iblk m c 1 t :=
  (iblk1_eq m c (prev t)).trans (iblk1_eq m c t).symm

theorem iblk2_prev (c : Dev nD) (t : Fin cfg0.N) : (iblk m c 2 (prev t) : Vec Ideal S32x1 .f32) = iblk m c 2 t := by
  funext j
  obtain ⟨k, u, rfl⟩ : ∃ (k : Fin 32) (u : Fin 1), j = ix2 k u := ⟨j 0, j 1, eq_ix2 (n0 := 32) (n1 := 1) j⟩
  obtain rfl : u = 0 := Subsingleton.elim _ _
  exact (iblk2_apply m c (prev t) k).trans (iblk2_apply m c t k).symm

/-- The blocks as the specification's matrices: the codebook, the scales, and the image's two halves. -/
theorem ct_iblk (c : Dev nD) (t : Fin cfg0.N) : ct (iblk m c 1 t) = codes (argC m c) := by
  funext k d
  show (iblk m c 1 t : Vec Ideal S32x512 .f32) (ix2 k d) = _
  rw [iblk1_eq]
  rfl

theorem st_iblk (c : Dev nD) (t : Fin cfg0.N) : st (iblk m c 2 t) = scales (argS m c) := by
  funext k
  exact iblk2_apply m c t k

theorem xt_iblk_odd (c : Dev nD) (t : Fin cfg0.N) (h1 : t.val % 2 = 1) :
    xt (iblk m c 0 t) = fun d n => image shapeCasts_S16x512x64x64_S16x512x4096 (argX m c) (imgOf t) d (Fin.natAdd 2048 n) := by
  funext d n
  refine (iblk0_apply m c t d n).trans (congrArg _ ?_)
  refine congrArg (ix3 (imgOf t) d) (Fin.ext ?_)
  show 2048 * (t.val % 2) + n.val = 2048 + n.val
  rw [h1]

theorem xt_iblk_prev (c : Dev nD) (t : Fin cfg0.N) (h1 : t.val % 2 = 1) :
    xt (iblk m c 0 (prev t)) = fun d n => image shapeCasts_S16x512x64x64_S16x512x4096 (argX m c) (imgOf t) d (Fin.castAdd 2048 n) := by
  funext d n
  refine (iblk0_apply m c (prev t) d n).trans (congrArg _ ?_)
  have e1 : imgOf (prev t) = imgOf t := Fin.ext (by show (t.val - 1) / 2 = t.val / 2; omega)
  have e2 : tokOf (prev t) n = Fin.castAdd 2048 n := Fin.ext (by
    show 2048 * ((t.val - 1) % 2) + n.val = n.val
    omega)
  rw [e1, e2]

/-- So at every odd point the output's block is the result's block of that point's image. -/
theorem left_odd_apply (c : Dev nD) (t : Fin cfg0.N) (h1 : t.val % 2 = 1) (k : Fin 32) (d : Fin 512) :
    ((outsAt0 m c t.val t.isLt).1 : Vec Ideal S1x32x512 .f32) (ix3 (0 : Fin 1) k d) = G m c (ix3 (imgOf t) k d) := by
  rw [left_odd m c t h1, iblk1_prev, iblk2_prev]
  refine (stored_apply (iblk m c 1 t) (iblk m c 2 t) (iblk m c 0 (prev t)) (iblk m c 0 t) k d).trans ?_
  rw [ct_iblk, st_iblk, xt_iblk_odd m c t h1, xt_iblk_prev m c t h1]
  exact (agg_eq_tiled _ _ _ k d).symm.trans (result_apply _ _ _ _ (imgOf t) k d).symm

/-- The result array after the run. -/
theorem final (c : Dev nD) : (dats m 0 c).arrAt 3 cfg0.N = G m c :=
  final3 m c (G m c) fun t h1 k d => left_odd_apply m c t h1 k d

/-- THE RUN: every weakly fair execution of the kernel's program terminates with the result array at
    `Cert.SoftAssign.result` of the three arguments, and the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.RunValue

end
-- ==== Proof.RefValue.lean ====
/-
  The reference program on the extended reals is the soft assignment of `Cert.SoftAssign`.

  Each stage of the reference is read at an index with literal coordinates `(b, n, k, d)` — image, token, codeword,
  channel — and identified with the corresponding quantity of the specification: the transposed image, the squared
  norms of tokens and codewords, their inner products, the scaled distances, the maximum over the codewords, the
  exponentials, their sum, the weights, and last the two sums over the tokens that make the aggregate. Every step is
  a rewriting of one element; nothing is summed out or enumerated.
-/
import proofs.«112596_j73332271612207_2_alg».proof.Proof.Gen.ReferenceIdeal.Read
import proofs.«112596_j73332271612207_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.SoftAssign
open Idealize.ShloMosaic Idealize.ShloMosaic.ValueIdx

variable (h : SX4.ShapeCasts SX3)
  (x0 : (⟨S16x512x64x64, .f32⟩ : BufTy).Contents (Elt Ideal))
  (x1 : (⟨S32x512, .f32⟩ : BufTy).Contents (Elt Ideal))
  (x2 : (⟨S32, .f32⟩ : BufTy).Contents (Elt Ideal))

/-- The transposed image at `(b, n, d)` is image `b` at channel `d`, token `n`: the reshape is the same cast of the
    batch that `image` names, and the transpose swaps the last two coordinates. -/
theorem v1_at (b : Fin 16) (n : Fin 4096) (d : Fin 512) :
    val_main_v1 (F := Ideal) x0 (ix3 b n d) = image h x0 b d n := by
  have e : idx_main_v1 (ix3 b n d) = ix3 b d n := by
    funext a; match a with | ⟨0, _⟩ => rfl | ⟨1, _⟩ => rfl | ⟨2, _⟩ => rfl
  exact (val_main_v1_apply x0 (ix3 b n d)).trans ((congrArg (val_main_v0 (F := Ideal) x0) e).trans rfl)

/-- The sum of squares over the channels, from zero, is `‖x · n‖²`. -/
theorem v4_at (b : Fin 16) (n : Fin 4096) :
    val_main_v4 (F := Ideal) x0 (ix2 b n) = sqNorm (image h x0 b) n := by
  rw [val_main_v4_apply, val_main_cst_apply, Ideal.ofBits_def, Ideal.ofBits_zero_f32, zero_add]
  unfold sqNorm
  refine Finset.sum_congr rfl fun d _ => ?_
  have e : idx_main_v4 (ix2 b n) d = ix3 b n d := by
    funext a; match a with | ⟨0, _⟩ => rfl | ⟨1, _⟩ => rfl | ⟨2, _⟩ => rfl
  rw [e, val_main_v3_apply, Ideal.mulf_def, v1_at h]

/-- The sum of squares of a codeword's entries, from zero, is `‖C k‖²`. -/
theorem v6_at (k : Fin 32) :
    val_main_v6 (F := Ideal) x1 (ix1 k) = codeSq (codes x1) k := by
  rw [val_main_v6_apply, val_main_cst_0_apply, Ideal.ofBits_def, Ideal.ofBits_zero_f32, zero_add]
  unfold codeSq codes
  refine Finset.sum_congr rfl fun d _ => ?_
  have e : idx_main_v6 (ix1 k) d = ix2 k d := by
    funext a; match a with | ⟨0, _⟩ => rfl | ⟨1, _⟩ => rfl
  rw [e, val_main_v5_apply, Ideal.mulf_def]

/-- The contraction over the channels is `⟨C k, x · n⟩`, the factors of each product in the other order. -/
theorem v7_at (b : Fin 16) (n : Fin 4096) (k : Fin 32) :
    val_main_v7 (F := Ideal) x0 x1 (ix3 b n k) = SoftAssign.inner (image h x0 b) (codes x1) n k := by
  rw [val_main_v7_apply]
  unfold SoftAssign.inner codes
  refine Finset.sum_congr rfl fun d _ => ?_
  have el : lidx_main_v7 (ix3 b n k) d = ix3 b n d := by
    funext a; match a with | ⟨0, _⟩ => rfl | ⟨1, _⟩ => rfl | ⟨2, _⟩ => rfl
  have er : ridx_main_v7 (ix3 b n k) d = ix2 k d := by
    funext a; match a with | ⟨0, _⟩ => rfl | ⟨1, _⟩ => rfl
  rw [el, er, v1_at h, mul_comm]

/-- The scaled distance: `S k · S k` times `(‖x · n‖² − 2 · ⟨C k, x · n⟩) + ‖C k‖²`, each broadcast read at its own
    coordinates. -/
theorem v18_at (b : Fin 16) (n : Fin 4096) (k : Fin 32) :
    val_main_v18 (F := Ideal) x0 x1 x2 (ix3 b n k)
      = dist (image h x0 b) (codes x1) (scales x2) n k := by
  have e17 : idx_main_v17 (ix3 b n k) = ix3 (0 : Fin 1) (0 : Fin 1) k := by
    funext a; match a with | ⟨0, _⟩ => rfl | ⟨1, _⟩ => rfl | ⟨2, _⟩ => rfl
  have e8 : idx_main_v8 (ix3 (0 : Fin 1) (0 : Fin 1) k) = ix1 k := by
    funext a; match a with | ⟨0, _⟩ => rfl
  have e12 : idx_main_v12 (ix3 b n k) = ix3 b n (0 : Fin 1) := by
    funext a; match a with | ⟨0, _⟩ => rfl | ⟨1, _⟩ => rfl | ⟨2, _⟩ => rfl
  have e9 : idx_main_v9 (ix3 b n (0 : Fin 1)) = ix2 b n := by
    funext a; match a with | ⟨0, _⟩ => rfl | ⟨1, _⟩ => rfl
  have e15 : idx_main_v15 (ix3 b n k) = ix3 (0 : Fin 1) (0 : Fin 1) k := by
    funext a; match a with | ⟨0, _⟩ => rfl | ⟨1, _⟩ => rfl | ⟨2, _⟩ => rfl
  have e14 : idx_main_v14 (ix3 (0 : Fin 1) (0 : Fin 1) k) = ix1 k := by
    funext a; match a with | ⟨0, _⟩ => rfl
  rw [val_main_v18_apply, val_main_v17_apply, e17, val_main_v8_apply, e8, val_main_v2_apply,
    val_main_v16_apply, val_main_v13_apply, val_main_v12_apply, e12, val_main_v9_apply, e9, v4_at h,
    val_main_v11_apply, val_main_v10_apply, val_main_cst_1_apply, v7_at h,
    val_main_v15_apply, e15, val_main_v14_apply, e14, v6_at]
  rfl

/-- A `(b, n)` index with codeword `k` put back on the last axis is `(b, n, k)`. -/
theorem lift_at (hr : S16x4096x32.Reduces [2] S16x4096) (b : Fin 16) (n : Fin 4096)
    (k : Fin (S16x4096x32.size 2)) :
    hr.lift (ix2 b n) k = ix3 b n (⟨k.val, k.isLt⟩ : Fin 32) := by
  funext c; apply Fin.ext
  fin_cases c <;> rfl

/-- The maximum over the 32 codewords, from `-∞`, is the fold of `max` over the token's distances. -/
theorem v19_at (b : Fin 16) (n : Fin 4096) :
    val_main_v19 (F := Ideal) x0 x1 x2 (ix2 b n) = top (image h x0 b) (codes x1) (scales x2) n := by
  have hr : S16x4096x32.Reduces [2] S16x4096 := by decide
  unfold val_main_v19
  rw [Host.reduce_eq_fold_single FloatOps.maximumf _ _ reducesTo_S16x4096x32_S16x4096_d2 hr h_S_]
  have hf : (val_main_v18 (F := Ideal) x0 x1 x2 ∘ hr.lift (ix2 b n))
      = fun k : Fin 32 => dist (image h x0 b) (codes x1) (scales x2) n k :=
    funext fun k => (congrArg (val_main_v18 (F := Ideal) x0 x1 x2) (lift_at hr b n k)).trans
      (v18_at h x0 x1 x2 b n ⟨k.val, k.isLt⟩)
  exact congrArg (fun f => Finset.fold max ninf f (Finset.univ : Finset (Fin 32))) hf

/-- One more maximum with `-∞` changes nothing. -/
theorem v21_at (b : Fin 16) (n : Fin 4096) :
    val_main_v21 (F := Ideal) x0 x1 x2 (ix2 b n) = top (image h x0 b) (codes x1) (scales x2) n := by
  rw [val_main_v21_apply, val_main_v20_apply, val_main_cst_3_apply, Ideal.maximumf_def, Ideal.ofBits_def,
    v19_at h]
  exact max_ninf _

/-- The exponential of a distance less the token's largest. -/
theorem v25_at (b : Fin 16) (n : Fin 4096) (k : Fin 32) :
    val_main_v25 (F := Ideal) x0 x1 x2 (ix3 b n k) = num (image h x0 b) (codes x1) (scales x2) n k := by
  have e23 : idx_main_v23 (ix3 b n k) = ix3 b n (0 : Fin 1) := by
    funext a; match a with | ⟨0, _⟩ => rfl | ⟨1, _⟩ => rfl | ⟨2, _⟩ => rfl
  have e22 : idx_main_v22 (ix3 b n (0 : Fin 1)) = ix2 b n := by
    funext a; match a with | ⟨0, _⟩ => rfl | ⟨1, _⟩ => rfl
  rw [val_main_v25_apply, Ideal.hostUnary_exp_def, val_main_v24_apply, Ideal.subf_def, v18_at h,
    val_main_v23_apply, e23, val_main_v22_apply, e22, v21_at h]
  rfl

/-- The sum of a token's 32 exponentials, from zero. -/
theorem v26_at (b : Fin 16) (n : Fin 4096) :
    val_main_v26 (F := Ideal) x0 x1 x2 (ix2 b n) = den (image h x0 b) (codes x1) (scales x2) n := by
  rw [val_main_v26_apply, val_main_cst_4_apply, Ideal.ofBits_def, Ideal.ofBits_zero_f32, zero_add]
  unfold den
  refine Finset.sum_congr rfl fun k _ => ?_
  have e : idx_main_v26 (ix2 b n) k = ix3 b n k := by
    funext a; match a with | ⟨0, _⟩ => rfl | ⟨1, _⟩ => rfl | ⟨2, _⟩ => rfl
  rw [e, v25_at h]

/-- The weight: an exponential divided by the token's sum. -/
theorem v29_at (b : Fin 16) (n : Fin 4096) (k : Fin 32) :
    val_main_v29 (F := Ideal) x0 x1 x2 (ix3 b n k) = weight (image h x0 b) (codes x1) (scales x2) n k := by
  have e28 : idx_main_v28 (ix3 b n k) = ix3 b n (0 : Fin 1) := by
    funext a; match a with | ⟨0, _⟩ => rfl | ⟨1, _⟩ => rfl | ⟨2, _⟩ => rfl
  have e27 : idx_main_v27 (ix3 b n (0 : Fin 1)) = ix2 b n := by
    funext a; match a with | ⟨0, _⟩ => rfl | ⟨1, _⟩ => rfl
  rw [val_main_v29_apply, Ideal.hostDivf_def, v25_at h, val_main_v28_apply, e28, val_main_v27_apply, e27,
    v26_at h]
  rfl

/-- The contraction over the tokens: `∑ₙ w n k · x d n`. -/
theorem v30_at (b : Fin 16) (k : Fin 32) (d : Fin 512) :
    val_main_v30 (F := Ideal) x0 x1 x2 (ix3 b k d)
      = ∑ n : Fin 4096, weight (image h x0 b) (codes x1) (scales x2) n k * image h x0 b d n := by
  rw [val_main_v30_apply]
  refine Finset.sum_congr rfl fun n _ => ?_
  have el : lidx_main_v30 (ix3 b k d) n = ix3 b n k := by
    funext a; match a with | ⟨0, _⟩ => rfl | ⟨1, _⟩ => rfl | ⟨2, _⟩ => rfl
  have er : ridx_main_v30 (ix3 b k d) n = ix3 b n d := by
    funext a; match a with | ⟨0, _⟩ => rfl | ⟨1, _⟩ => rfl | ⟨2, _⟩ => rfl
  rw [el, er, v29_at h, v1_at h]

/-- The sum of the weights over the tokens, from zero: `∑ₙ w n k`. -/
theorem v31_at (b : Fin 16) (k : Fin 32) :
    val_main_v31 (F := Ideal) x0 x1 x2 (ix2 b k)
      = ∑ n : Fin 4096, weight (image h x0 b) (codes x1) (scales x2) n k := by
  rw [val_main_v31_apply, val_main_cst_5_apply, Ideal.ofBits_def, Ideal.ofBits_zero_f32, zero_add]
  refine Finset.sum_congr rfl fun n _ => ?_
  have e : idx_main_v31 (ix2 b k) n = ix3 b n k := by
    funext a; match a with | ⟨0, _⟩ => rfl | ⟨1, _⟩ => rfl | ⟨2, _⟩ => rfl
  rw [e, v29_at h]

/-- The last stage at `(b, k, d)` is codeword `k`'s aggregate at channel `d` over image `b`. -/
theorem v37_at (b : Fin 16) (k : Fin 32) (d : Fin 512) :
    val_main_v37 (F := Ideal) x0 x1 x2 (ix3 b k d)
      = agg (codes x1) (scales x2) (image h x0 b) k d := by
  have e34 : idx_main_v34 (ix3 b k d) = ix3 b k (0 : Fin 1) := by
    funext a; match a with | ⟨0, _⟩ => rfl | ⟨1, _⟩ => rfl | ⟨2, _⟩ => rfl
  have e32 : idx_main_v32 (ix3 b k (0 : Fin 1)) = ix2 b k := by
    funext a; match a with | ⟨0, _⟩ => rfl | ⟨1, _⟩ => rfl
  have e35 : idx_main_v35 (ix3 b k d) = ix3 (0 : Fin 1) k d := by
    funext a; match a with | ⟨0, _⟩ => rfl | ⟨1, _⟩ => rfl | ⟨2, _⟩ => rfl
  have e33 : idx_main_v33 (ix3 (0 : Fin 1) k d) = ix2 k d := by
    funext a; match a with | ⟨0, _⟩ => rfl | ⟨1, _⟩ => rfl
  rw [val_main_v37_apply, Ideal.subf_def, v30_at h, val_main_v36_apply, Ideal.mulf_def,
    val_main_v34_apply, e34, val_main_v32_apply, e32, v31_at h, val_main_v35_apply, e35,
    val_main_v33_apply, e33]
  rfl

/-- The reference's result is `Cert.SoftAssign.result`: the two agree at every index, an index being its three
    coordinates. -/
theorem reference_eq (h : Cert.SoftAssign.SX4.ShapeCasts Cert.SoftAssign.SX3)
    (x0 : (⟨Cert.ReferenceIdeal.S16x512x64x64, .f32⟩ : BufTy).Contents (Elt Ideal)) (x1 : (⟨Cert.ReferenceIdeal.S32x512, .f32⟩ : BufTy).Contents (Elt Ideal)) (x2 : (⟨Cert.ReferenceIdeal.S32, .f32⟩ : BufTy).Contents (Elt Ideal)) :
    Cert.ReferenceIdeal.Read.val_main_v37 (F := Ideal) x0 x1 x2 = Cert.SoftAssign.result h x0 x1 x2 := by
  funext i
  obtain ⟨b, k, d, rfl⟩ : ∃ (b : Fin 16) (k : Fin 32) (d : Fin 512), i = ix3 b k d :=
    ⟨i 0, i 1, i 2, eq_ix3 i⟩
  exact (v37_at h x0 x1 x2 b k d).trans (result_apply h x0 x1 x2 b k d).symm

end Cert.ReferenceIdeal.RefValue

end
-- ==== Proof.lean ====
/-
  The kernel and its reference compute one function on the extended reals.

  Both programs take a batch of 16 images `[16, 512, 64, 64]` (512 channels, 64 × 64 = 4096 tokens), a codebook of 32
  codewords `[32, 512]` and a scale per codeword `[32]`. Each token is softly assigned to the codewords — its weights
  are the exponentials of its scaled squared distances `S k² · ((‖x‖² − 2 ⟨C k, x⟩) + ‖C k‖²)` less their maximum, divided
  by their sum — and the result `[16, 32, 512]` holds, per image and codeword, `∑ₙ w n k · x d n − (∑ₙ w n k) · C k d`
  (Proof/Spec.lean, `Cert.SoftAssign.result`).

  The reference spells exactly this, operation by operation (Proof/RefValue.lean). The kernel walks a 16 × 2 grid: an
  image's tokens come in two tiles of 2048, the first tile zeroes two accumulators and adds its partial sums, the second
  adds its own and stores the difference; entry by entry the body's arithmetic is the specification's on the tile's
  columns (Proof/Payload.lean), what each case leaves is the body's payloads (Proof/Pieces.lean), the blocks are reads of
  the arguments and the written-back blocks cover the result (Proof/Blocks.lean), and the sum over 4096 tokens is the sum
  accumulated over its two halves (Proof/RunValue.lean). The two sides differ only in the order of two factors, in one
  more maximum with `-∞`, in zero accumulators and in the grouping of a sum: commutativity and associativity on the
  extended reals, with no finiteness needed, so the precondition is never opened. The ideal pass rewrote nothing:
  `preserves` is `True`. The three frames are the generated ones.
-/
import proofs.«112596_j73332271612207_2_alg».proof.Defs
import proofs.«112596_j73332271612207_2_alg».proof.Proof.Gen.Kernel
import proofs.«112596_j73332271612207_2_alg».proof.Proof.Gen.Kernel.Frame
import proofs.«112596_j73332271612207_2_alg».proof.Proof.Gen.KernelIdeal
import proofs.«112596_j73332271612207_2_alg».proof.Proof.Gen.KernelIdeal.Frame
import proofs.«112596_j73332271612207_2_alg».proof.Proof.Gen.KernelIdeal.Value
import proofs.«112596_j73332271612207_2_alg».proof.Proof.Gen.ReferenceIdeal
import proofs.«112596_j73332271612207_2_alg».proof.Proof.Gen.ReferenceIdeal.Run
import proofs.«112596_j73332271612207_2_alg».proof.Proof.Gen.ReferenceIdeal.Read
import proofs.«112596_j73332271612207_2_alg».proof.Proof.Gen.Pre_finite_inputs
import proofs.«112596_j73332271612207_2_alg».proof.Proof.RunValue
import proofs.«112596_j73332271612207_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, the kernel's result array ends at the aggregate of the soft assignment of the three
    arguments (its run, read entry by entry), and the reference's last stage is the same function of them. -/
theorem algebraic : Cert.algebraic_KernelIdeal_ReferenceIdeal := by
  intro m ρ m' ρ' _ hagree
  refine ⟨fun c => Cert.KernelIdeal.RunValue.G m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq,
    Cert.ReferenceIdeal.RefValue.reference_eq Cert.KernelIdeal.Gen.shapeCasts_S16x512x64x64_S16x512x4096,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
